-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S320000x20 : Shape := ⟨2, ![320000, 20]⟩
abbrev S20x256 : Shape := ⟨2, ![20, 256]⟩
abbrev S256 : Shape := ⟨1, ![256]⟩
abbrev S256x256 : Shape := ⟨2, ![256, 256]⟩
abbrev S2x320000 : Shape := ⟨2, ![2, 320000]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000x20 : S_.BroadcastsInDim S320000x20 (![] : Fin 0 → Fin S320000x20.rank)
  reducesTo_S320000x20_S_d0_1 : S320000x20.ReducesTo [0, 1] S_
  bcast_S_S20x256 : S_.BroadcastsInDim S20x256 (![] : Fin 0 → Fin S20x256.rank)
  reducesTo_S20x256_S_d0_1 : S20x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg11 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S256 .f32) (main_arg8 : FVec F S256x256 .f32) (main_arg9 : FVec F S256 .f32) (main_arg10 : FVec F S256 .f32) (main_arg11 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256 .f32) (main_arg11 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x256 .f32) (main_arg1 : FVec F S320000x20 .f32) (main_arg2 : FVec F S20x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256 .f32) (main_arg11 : FVec F S256 .f32) (main_arg12 : IVec S2x320000 32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000x20 .f32 := Host.absf main_arg1
  let main_cst_0 : FVec F S_ .f32 := constant S_ .f32 0x7F800000#32
  let main_v5 : FVec F S320000x20 .f32 := broadcastInDim S320000x20 ![] bcast_S_S320000x20 main_cst_0
  let main_v6 : IVec S320000x20 1 := cmpf .olt main_v4 main_v5
  let main_c_1 : IVec S_ 1 := constantI S_ 1 1#1
  let main_v7 : IVec S_ 1 := (fun x v => Host.reduce IntOp.andi x v reducesTo_S320000x20_S_d0_1 h_S_) main_v6 main_c_1
  let main_v8 : IVec S_ 1 := andi main_v3 main_v7
  let main_v9 : FVec F S20x256 .f32 := Host.absf main_arg2
  let main_cst_2 : FVec F S_ .f32 := constant S_ .f32 0x7F800000#32
  let main_v10 : FVec F S20x256 .f32 := broadcastInDim S20x256 ![] bcast_S_S20x256 main_cst_2
  let main_v11 : IVec S20x256 1 := cmpf .olt main_v9 main_v10
  let main_c_3 : IVec S_ 1 := constantI S_ 1 1#1
  let main_v12 : IVec S_ 1 := (fun x v => Host.reduce IntOp.andi x v reducesTo_S20x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S10000x256 : Shape := ⟨2, ![10000, 256]⟩
abbrev S320000x20 : Shape := ⟨2, ![320000, 20]⟩
abbrev S20x256 : Shape := ⟨2, ![20, 256]⟩
abbrev S256 : Shape := ⟨1, ![256]⟩
abbrev S256x256 : Shape := ⟨2, ![256, 256]⟩
abbrev S2x320000 : Shape := ⟨2, ![2, 320000]⟩
abbrev S1x320000 : Shape := ⟨2, ![1, 320000]⟩
abbrev S320000 : Shape := ⟨1, ![320000]⟩
abbrev S320000x256 : Shape := ⟨2, ![320000, 256]⟩
abbrev S4000x20 : Shape := ⟨2, ![4000, 20]⟩
abbrev S4000x256 : Shape := ⟨2, ![4000, 256]⟩
abbrev S1x256 : Shape := ⟨2, ![1, 256]⟩
abbrev S_ : Shape := ⟨0, ![]⟩
abbrev S320000x1 : Shape := ⟨2, ![320000, 1]⟩
abbrev S2000x256 : Shape := ⟨2, ![2000, 256]⟩

abbrev nBuf : Space → Nat
  | .hbm => 66
  | .vmem => 16
  | .smem => 0
  | _ => 0

abbrev bufTy : (tb : Table) → Fin (tcTables nBuf tb) → BufTy
  | .hbm, ⟨0, _⟩ => ⟨S10000x256, .f32⟩
  | .hbm, ⟨1, _⟩ => ⟨S320000x20, .f32⟩
  | .hbm, ⟨2, _⟩ => ⟨S20x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S2x320000, .i32⟩
  | .hbm, ⟨13, _⟩ => ⟨S1x320000, .i32⟩
  | .hbm, ⟨14, _⟩ => ⟨S320000, .i32⟩
  | .hbm, ⟨15, _⟩ => ⟨S1x320000, .i32⟩
  | .hbm, ⟨16, _⟩ => ⟨S320000, .i32⟩
  | .hbm, ⟨17, _⟩ => ⟨S320000x256, .f32⟩
  | .hbm, ⟨18, _⟩ => ⟨S10000x256, .bf16⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S320000x256, .bf16⟩
  | .hbm, ⟨28, _⟩ => ⟨S320000x256, .f32⟩
  | .hbm, ⟨29, _⟩ => ⟨S320000x256, .f32⟩
  | .hbm, ⟨30, _⟩ => ⟨S_, .f32⟩
  | .hbm, ⟨31, _⟩ => ⟨S10000x256, .f32⟩
  | .hbm, ⟨32, _⟩ => ⟨S320000x1, .i32⟩
  | .hbm, ⟨33, _⟩ => ⟨S10000x256, .f32⟩
  | .hbm, ⟨34, _⟩ => ⟨S10000x256, .f32⟩
  | .hbm, ⟨35, _⟩ => ⟨S_, .f32⟩
  | .hbm, ⟨36, _⟩ => ⟨S256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S1x256, .f32⟩
  | .hbm, ⟨41, _⟩ => ⟨S10000x256, .f32⟩
  | .hbm, ⟨42, _⟩ => ⟨S10000x256, .f32⟩
  | .hbm, ⟨43, _⟩ => ⟨S10000x256, .f32⟩
  | .hbm, ⟨44, _⟩ => ⟨S_, .f32⟩
  | .hbm, ⟨45, _⟩ => ⟨S256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S1x256, .f32⟩
  | .hbm, ⟨50, _⟩ => ⟨S10000x256, .f32⟩
  | .hbm, ⟨51, _⟩ => ⟨S10000x256, .f32⟩
  | .hbm, ⟨52, _⟩ => ⟨S1x256, .f32⟩
  | .hbm, ⟨53, _⟩ => ⟨S10000x256, .f32⟩
  | .hbm, ⟨54, _⟩ => ⟨S10000x256, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S256, .f32⟩
  | .hbm, ⟨59, _⟩ => ⟨S1x256, .f32⟩
  | .hbm, ⟨60, _⟩ => ⟨S10000x256, .f32⟩
  | .hbm, ⟨61, _⟩ => ⟨S10000x256, .f32⟩
  | .hbm, ⟨62, _⟩ => ⟨S1x256, .f32⟩
  | .hbm, ⟨63, _⟩ => ⟨S10000x256, .f32⟩
  | .hbm, ⟨64, _⟩ => ⟨S10000x256, .f32⟩
  | .hbm, ⟨65, _⟩ => ⟨S10000x256, .f32⟩
  | .local _ .vmem, ⟨0, _⟩ => ⟨S4000x20, .f32⟩
  | .local _ .vmem, ⟨1, _⟩ => ⟨S4000x20, .f32⟩
  | .local _ .vmem, ⟨2, _⟩ => ⟨S20x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S4000x256, .f32⟩
  | .local _ .vmem, ⟨7, _⟩ => ⟨S4000x256, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S2000x256, .f32⟩
  | .local _ .vmem, ⟨15, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  inb_S4000x20_S4000x20_0_0 : ∀ a, (![0, 0] : Fin 2 → Nat) a + S4000x20.size a ≤ S4000x20.size a
  h_S4000x20 : 0 < S4000x20.numel
  bitsLt_bf16_f32 : FTy.bits .bf16 < FTy.bits .f32
  inb_S20x256_S20x256_0_0 : ∀ a, (![0, 0] : Fin 2 → Nat) a + S20x256.size a ≤ S20x256.size a
  h_S20x256 : 0 < S20x256.numel
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  inb_S4000x256_S4000x256_0_0 : ∀ a, (![0, 0] : Fin 2 → Nat) a + S4000x256.size a ≤ S4000x256.size a
  h_S4000x256 : 0 < S4000x256.numel
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S1x256_S2000x256 : S1x256.Broadcasts S2000x256
  reducesTo_S10000x256_S256_d0 : S10000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  dot_S4000x20_S20x256_S4000x256_1_0_0_1_n_n_wf : DotDims.WF S4000x20 S20x256 S4000x256 [1] [0] [0] [1] [] []
  dot_S4000x256_S256x256_S4000x256_1_0_0_1_n_n_wf : DotDims.WF S4000x256 S256x256 S4000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x20.size a ≤ S320000x20.size a
  hwx0_0 : ∀ i : grid0.Coords, EltTy.bits .f32 = 32 ∨ (Rect.block (s := S320000x20) S4000x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x256.size a ≤ S20x256.size a
  hwx0_1 : ∀ i : grid0.Coords, EltTy.bits .f32 = 32 ∨ (Rect.block (s := S20x256) S20x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S320000x256.size a
  hwx0_5 : ∀ i : grid0.Coords, EltTy.bits .f32 = 32 ∨ (Rect.block (s := S320000x256) S4000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S10000x256.size a
  hwx1_5 : ∀ i : grid1.Coords, EltTy.bits .f32 = 32 ∨ (Rect.block (s := S10000x256) S2000x256.size (cc1_transform_5 i) (hinb1_5 i)).WholeWords (EltTy.packing .f32)

variable [Facts₀]

def dot_S4000x20_S20x256_S4000x256_1_0_0_1_n_n : DotDims S4000x20 S20x256 S4000x256 where
  lhsContracting := [1]
  rhsContracting := [0]
  lhsNonContracting := [0]
  rhsNonContracting := [1]
  lhsBatch := []
  rhsBatch := []
  wf := dot_S4000x20_S20x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg1) S4000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S20x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x256 : Shape := ⟨2, ![10000, 256]⟩
abbrev S320000x20 : Shape := ⟨2, ![320000, 20]⟩
abbrev S20x256 : Shape := ⟨2, ![20, 256]⟩
abbrev S256 : Shape := ⟨1, ![256]⟩
abbrev S256x256 : Shape := ⟨2, ![256, 256]⟩
abbrev S2x320000 : Shape := ⟨2, ![2, 320000]⟩
abbrev S1x320000 : Shape := ⟨2, ![1, 320000]⟩
abbrev S320000 : Shape := ⟨1, ![320000]⟩
abbrev S320000x256 : Shape := ⟨2, ![320000, 256]⟩
abbrev S1x256 : Shape := ⟨2, ![1, 256]⟩
abbrev S_ : Shape := ⟨0, ![]⟩
abbrev S320000x1 : Shape := ⟨2, ![320000, 1]⟩

abbrev nBuf : Space → Nat
  | .hbm => 96
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S320000x20, .f32⟩
  | .hbm, ⟨2, _⟩ => ⟨S20x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S2x320000, .i32⟩
  | .hbm, ⟨13, _⟩ => ⟨S1x320000, .i32⟩
  | .hbm, ⟨14, _⟩ => ⟨S320000, .i32⟩
  | .hbm, ⟨15, _⟩ => ⟨S1x320000, .i32⟩
  | .hbm, ⟨16, _⟩ => ⟨S320000, .i32⟩
  | .hbm, ⟨17, _⟩ => ⟨S320000x256, .f32⟩
  | .hbm, ⟨18, _⟩ => ⟨S1x256, .f32⟩
  | .hbm, ⟨19, _⟩ => ⟨S320000x256, .f32⟩
  | .hbm, ⟨20, _⟩ => ⟨S320000x256, .f32⟩
  | .hbm, ⟨21, _⟩ => ⟨S320000x256, .f32⟩
  | .hbm, ⟨22, _⟩ => ⟨S320000x256, .f32⟩
  | .hbm, ⟨23, _⟩ => ⟨S_, .f32⟩
  | .hbm, ⟨24, _⟩ => ⟨S320000x256, .f32⟩
  | .hbm, ⟨25, _⟩ => ⟨S320000x256, .f32⟩
  | .hbm, ⟨26, _⟩ => ⟨S_, .f32⟩
  | .hbm, ⟨27, _⟩ => ⟨S320000x256, .f32⟩
  | .hbm, ⟨28, _⟩ => ⟨S320000x256, .f32⟩
  | .hbm, ⟨29, _⟩ => ⟨S320000x256, .f32⟩
  | .hbm, ⟨30, _⟩ => ⟨S320000x256, .f32⟩
  | .hbm, ⟨31, _⟩ => ⟨S1x256, .f32⟩
  | .hbm, ⟨32, _⟩ => ⟨S320000x256, .f32⟩
  | .hbm, ⟨33, _⟩ => ⟨S320000x256, .f32⟩
  | .hbm, ⟨34, _⟩ => ⟨S_, .i32⟩
  | .hbm, ⟨35, _⟩ => ⟨S320000, .i32⟩
  | .hbm, ⟨36, _⟩ => ⟨S320000, .i1⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000, .i32⟩
  | .hbm, ⟨41, _⟩ => ⟨S320000x1, .i32⟩
  | .hbm, ⟨42, _⟩ => ⟨S320000x256, .f32⟩
  | .hbm, ⟨43, _⟩ => ⟨S320000x256, .f32⟩
  | .hbm, ⟨44, _⟩ => ⟨S_, .f32⟩
  | .hbm, ⟨45, _⟩ => ⟨S10000x256, .f32⟩
  | .hbm, ⟨46, _⟩ => ⟨S320000x1, .i32⟩
  | .hbm, ⟨47, _⟩ => ⟨S10000x256, .f32⟩
  | .hbm, ⟨48, _⟩ => ⟨S10000x256, .f32⟩
  | .hbm, ⟨49, _⟩ => ⟨S1x256, .f32⟩
  | .hbm, ⟨50, _⟩ => ⟨S10000x256, .f32⟩
  | .hbm, ⟨51, _⟩ => ⟨S10000x256, .f32⟩
  | .hbm, ⟨52, _⟩ => ⟨S10000x256, .f32⟩
  | .hbm, ⟨53, _⟩ => ⟨S10000x256, .f32⟩
  | .hbm, ⟨54, _⟩ => ⟨S_, .f32⟩
  | .hbm, ⟨55, _⟩ => ⟨S10000x256, .f32⟩
  | .hbm, ⟨56, _⟩ => ⟨S10000x256, .f32⟩
  | .hbm, ⟨57, _⟩ => ⟨S_, .f32⟩
  | .hbm, ⟨58, _⟩ => ⟨S10000x256, .f32⟩
  | .hbm, ⟨59, _⟩ => ⟨S10000x256, .f32⟩
  | .hbm, ⟨60, _⟩ => ⟨S10000x256, .f32⟩
  | .hbm, ⟨61, _⟩ => ⟨S10000x256, .f32⟩
  | .hbm, ⟨62, _⟩ => ⟨S1x256, .f32⟩
  | .hbm, ⟨63, _⟩ => ⟨S10000x256, .f32⟩
  | .hbm, ⟨64, _⟩ => ⟨S10000x256, .f32⟩
  | .hbm, ⟨65, _⟩ => ⟨S_, .f32⟩
  | .hbm, ⟨66, _⟩ => ⟨S256, .f32⟩
  | .hbm, ⟨67, _⟩ => ⟨S_, .f32⟩
  | .hbm, ⟨68, _⟩ => ⟨S256, .f32⟩
  | .hbm, ⟨69, _⟩ => ⟨S256, .f32⟩
  | .hbm, ⟨70, _⟩ => ⟨S1x256, .f32⟩
  | .hbm, ⟨71, _⟩ => ⟨S10000x256, .f32⟩
  | .hbm, ⟨72, _⟩ => ⟨S10000x256, .f32⟩
  | .hbm, ⟨73, _⟩ => ⟨S10000x256, .f32⟩
  | .hbm, ⟨74, _⟩ => ⟨S_, .f32⟩
  | .hbm, ⟨75, _⟩ => ⟨S256, .f32⟩
  | .hbm, ⟨76, _⟩ => ⟨S_, .f32⟩
  | .hbm, ⟨77, _⟩ => ⟨S256, .f32⟩
  | .hbm, ⟨78, _⟩ => ⟨S256, .f32⟩
  | .hbm, ⟨79, _⟩ => ⟨S1x256, .f32⟩
  | .hbm, ⟨80, _⟩ => ⟨S10000x256, .f32⟩
  | .hbm, ⟨81, _⟩ => ⟨S10000x256, .f32⟩
  | .hbm, ⟨82, _⟩ => ⟨S1x256, .f32⟩
  | .hbm, ⟨83, _⟩ => ⟨S10000x256, .f32⟩
  | .hbm, ⟨84, _⟩ => ⟨S10000x256, .f32⟩
  | .hbm, ⟨85, _⟩ => ⟨S_, .f32⟩
  | .hbm, ⟨86, _⟩ => ⟨S256, .f32⟩
  | .hbm, ⟨87, _⟩ => ⟨S256, .f32⟩
  | .hbm, ⟨88, _⟩ => ⟨S256, .f32⟩
  | .hbm, ⟨89, _⟩ => ⟨S1x256, .f32⟩
  | .hbm, ⟨90, _⟩ => ⟨S10000x256, .f32⟩
  | .hbm, ⟨91, _⟩ => ⟨S10000x256, .f32⟩
  | .hbm, ⟨92, _⟩ => ⟨S1x256, .f32⟩
  | .hbm, ⟨93, _⟩ => ⟨S10000x256, .f32⟩
  | .hbm, ⟨94, _⟩ => ⟨S10000x256, .f32⟩
  | .hbm, ⟨95, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_0 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_1 : Ref sig .tc := ⟨.hbm, 65, rfl⟩
abbrev main_v33 : Ref sig .tc := ⟨.hbm, 66, rfl⟩
abbrev main_cst_2 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_3 : Ref sig .tc := ⟨.hbm, 74, rfl⟩
abbrev main_v40 : Ref sig .tc := ⟨.hbm, 75, rfl⟩
abbrev main_cst_4 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_5 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  bcast_S1x256_S10000x256_0_1 : S1x256.BroadcastsInDim S10000x256 (![0, 1] : Fin 2 → Fin S10000x256.rank)
  reducesTo_S10000x256_S256_d0 : S10000x256.ReducesTo [0] S256
  h_S_ : 0 < S_.numel
  bcast_S_S256 : S_.BroadcastsInDim S256 (![] : Fin 0 → Fin S256.rank)
  dot_S320000x20_S20x256_S320000x256_1_0_0_1_n_n_wf : DotDims.WF S320000x20 S20x256 S320000x256 [1] [0] [0] [1] [] []
  dot_S320000x256_S256x256_S320000x256_1_0_0_1_n_n_wf : DotDims.WF S320000x256 S256x256 S320000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x256_S10000x256_1_0_0_1_n_n_wf : DotDims.WF S10000x256 S256x256 S10000x256 [1] [0] [0] [1] [] []

variable [Facts₀]

def dot_S320000x20_S20x256_S320000x256_1_0_0_1_n_n : DotDims S320000x20 S20x256 S320000x256 where
  lhsContracting := [1]
  rhsContracting := [0]
  lhsNonContracting := [0]
  rhsNonContracting := [1]
  lhsBatch := []
  rhsBatch := []
  wf := dot_S320000x20_S20x256_S320000x256_1_0_0_1_n_n_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.KernelRun.lean ====
/-
  The idealized kernel's run with its final memory NAMED. The program is three stretches of host operations around two
  pipelined regions; the buffer contents at each boundary are a fold from the launch memory (`W0` … `W5` of the frame
  module). Every weakly fair execution terminates, nothing faulting, and in the final state every unscoped buffer of a
  core holds what the last fold `W5` says — the result buffer included, which is what a value claim reads.
-/
import proofs.«116139_j72086731096588_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and its final state has every unscoped buffer
    of every core at the contents the last boundary's fold gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Whole

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.Spec.lean ====
/-
  The mathematics both programs compute, stated once over the extended reals with no program in sight.

  A two-layer perceptron with a sigmoid-weighted hidden layer: for a row `x` of `K` features, the hidden unit `k` has
  pre-activation `z k = (∑ j, x j · W₁ j k) + b₁ k`, the activation is `silu z = z · σ(z)` with `σ(z) = 1 / (1 + e^(-z))`,
  and output `q` is `(∑ k, silu (z k) · W₂ k q) + b₂ q`. `mlpArr` is that function row by row of an `M × K` array.
  The edge filter of the message-passing layer is `mlpArr` of the radial features (`K = 20`), the node update is `mlpArr` of
  the aggregated messages (`K = 256`); tiling the rows into blocks changes neither, since each output row reads one input row.
-/
import Idealize.ShloMosaic.PureOps.Ideal
import Idealize.ShloMosaic.Lib.ValueIdx

noncomputable section

open scoped BigOperators

namespace Cert.Spec

open Idealize.ShloMosaic Idealize.ShloMosaic.ValueIdx

/-- The hidden pre-activation `(∑ j, x j · W j k) + b k`. -/
def pre {K H : Nat} (x : Fin K → EReal) (W : Fin K → Fin H → EReal) (b : Fin H → EReal) (k : Fin H) : EReal :=
  (∑ j : Fin K, x j * W j k) + b k

/-- `silu z = z · σ(z)`, the sigmoid `σ` being `1 / (1 + e^(-z))` with its limits at the infinities. -/
def silu (z : EReal) : EReal := z * Ideal.logistic z

/-- One output of the perceptron on one row. -/
def mlp {K H N : Nat} (x : Fin K → EReal) (W₁ : Fin K → Fin H → EReal) (b₁ : Fin H → EReal)
    (W₂ : Fin H → Fin N → EReal) (b₂ : Fin N → EReal) (q : Fin N) : EReal :=
  (∑ k : Fin H, silu (pre x W₁ b₁ k) * W₂ k q) + b₂ q

/-- The perceptron applied to every row of an `M × K` array: entry `(r, q)` reads row `r` of `x` and nothing else of it. -/
def mlpArr {M K H N : Nat} (x : (⟨2, ![M, K]⟩ : Shape).Idx → EReal) (w₁ : (⟨2, ![K, H]⟩ : Shape).Idx → EReal)
    (b₁ : (⟨1, ![H]⟩ : Shape).Idx → EReal) (w₂ : (⟨2, ![H, N]⟩ : Shape).Idx → EReal) (b₂ : (⟨1, ![N]⟩ : Shape).Idx → EReal) :
    (⟨2, ![M, N]⟩ : Shape).Idx → EReal :=
  fun i => mlp (fun j => x (ix2 (i 0) j)) (fun j k => w₁ (ix2 j k)) (fun k => b₁ (ix1 k)) (fun k q => w₂ (ix2 k q))
    (fun q => b₂ (ix1 q)) (i 1)

theorem mlpArr_apply {M K H N : Nat} (x : (⟨2, ![M, K]⟩ : Shape).Idx → EReal) (w₁ : (⟨2, ![K, H]⟩ : Shape).Idx → EReal)
    (b₁ : (⟨1, ![H]⟩ : Shape).Idx → EReal) (w₂ : (⟨2, ![H, N]⟩ : Shape).Idx → EReal) (b₂ : (⟨1, ![N]⟩ : Shape).Idx → EReal)
    (r : Fin M) (q : Fin N) :
    mlpArr x w₁ b₁ w₂ b₂ (ix2 r q)
      = mlp (fun j => x (ix2 r j)) (fun j k => w₁ (ix2 j k)) (fun k => b₁ (ix1 k)) (fun k q => w₂ (ix2 k q))
          (fun q => b₂ (ix1 q)) q := rfl

end Cert.Spec

end
-- ==== Proof.FiltPayload.lean ====
/-
  The filter kernel's body, read at one entry. The body takes a block of 4000 rows of radial features, the two weight
  matrices and the two bias vectors, and stores one value: the hidden layer `silu (x · W₁ + b₁)` times `W₂` plus `b₂`. On the
  extended reals the changes of float format are the identity, a product into the zero accumulator is the plain sum over
  the contracted axis, and a bias vector viewed as one row and repeated down the rows reads its own entry: so entry `(p, q)`
  of the stored block is the perceptron of row `p` of the feature block at output `q`.
-/
import proofs.«116139_j72086731096588_2_alg».proof.Proof.Gen.KernelIdeal.Skeleton
import proofs.«116139_j72086731096588_2_alg».proof.Proof.LibMatmulNN
import proofs.«116139_j72086731096588_2_alg».proof.Proof.Spec
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx Cert.Spec

/-- A bias vector of 256 entries viewed as one row and repeated down 4000 rows reads, at `(p, q)`, its entry `q`. -/
theorem bias4000_apply (v : FVec Ideal S256 .f32) (p : Fin 4000) (q : Fin 256) :
    broadcastTo S4000x256 (shapeCast S1x256 v shapeCasts_S256_S1x256) broadcasts_S1x256_S4000x256 (ix2 p q) = v (ix1 q) :=
  (broadcastTo_1b_ab_apply _ broadcasts_S1x256_S4000x256 p q).trans (shapeCast_a_1a_apply v shapeCasts_S256_S1x256 0 q)

/-- The hidden pre-activation of the filter body at `(p, k)`: row `p` of the features against column `k` of `W₁`, plus `b₁ k`. -/
theorem filt_hidden_apply (b0 : FVec Ideal S4000x20 .f32) (b1 : FVec Ideal S20x256 .f32) (b2 : FVec Ideal S256 .f32)
    (p : Fin 4000) (k : Fin 256) :
    addf (matmul dot_S4000x20_S20x256_S4000x256_1_0_0_1_n_n none (truncf .bf16 b0 bitsLt_bf16_f32) (truncf .bf16 b1 bitsLt_bf16_f32)
        (constant (F := Ideal) S4000x256 .f32 0x00000000#32))
      (broadcastTo S4000x256 (shapeCast S1x256 b2 shapeCasts_S256_S1x256) broadcasts_S1x256_S4000x256) (ix2 p k)
      = pre (fun j => b0 (ix2 p j)) (fun j k => b1 (ix2 j k)) (fun k => b2 (ix1 k)) k := by
  show _ + _ = _
  refine (congrArg₂ (· + ·) (LibMatmulNN.matmul_zero_apply 4000 20 256 none (truncf .bf16 b0 bitsLt_bf16_f32) (truncf .bf16 b1 bitsLt_bf16_f32) p k)
    (bias4000_apply b2 p k)).trans ?_
  rfl

/-- Entry `(p, q)` of the block the filter body stores is the perceptron of row `p` of its feature block. -/
theorem filt_payload_apply (b0 : Vec Ideal S4000x20 .f32) (b1 : Vec Ideal S20x256 .f32) (b2 : Vec Ideal S256 .f32)
    (b3 : Vec Ideal S256x256 .f32) (b4 : Vec Ideal S256 .f32) (p : Fin 4000) (q : Fin 256) :
    k0_pay1 b0 b1 b2 b3 b4 (ix2 p q)
      = mlp (fun j => b0 (ix2 p j)) (fun j k => b1 (ix2 j k)) (fun k => b2 (ix1 k)) (fun k q => b3 (ix2 k q))
          (fun q => b4 (ix1 q)) q := by
  unfold k0_pay1 mlp
  show _ + _ = _
  refine (congrArg₂ (· + ·) (LibMatmulNN.matmul_zero_apply 4000 256 256 none _ (truncf .bf16 b3 bitsLt_bf16_f32) p q)
    (bias4000_apply b4 p q)).trans ?_
  refine congrArg (· + b4 (ix1 q)) (Finset.sum_congr rfl fun k _ => ?_)
  refine congrArg (· * b3 (ix2 k q)) ?_
  show _ * _ = silu _
  unfold silu
  have h := filt_hidden_apply b0 b1 b2 p k
  exact congrArg₂ (· * ·) h (congrArg Ideal.logistic h)

end Cert.KernelIdeal.Payload

end
-- ==== Proof.FiltArray.lean ====
/-
  The filter region's output array after its run. The region's grid has 80 points; point `t` fetches rows
  `4000·t … 4000·t + 3999` of the radial features and the whole of the weights and biases, and writes back rows
  `4000·t … 4000·t + 3999` of the output. What it writes back is the perceptron of those rows (the body read at an entry), which is
  the same rows of the perceptron of the whole feature array, since an output row reads one input row. The 80 blocks tile the
  320000 rows, so the array ends holding the perceptron applied row by row to the arrays the region was entered with.
-/
import proofs.«116139_j72086731096588_2_alg».proof.Proof.Gen.KernelIdeal.Frame
import proofs.«116139_j72086731096588_2_alg».proof.Proof.FiltPayload
import Idealize.ShloMosaic.Lib.Pipeline.Value

set_option maxRecDepth 16384

noncomputable section

namespace Cert.KernelIdeal.Arrays

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable (V : (c : Dev nD) → (b : Ref sig .tc) → Buf (Elt Ideal) ((c : Thread nD τ).loc b))

private theorem zero2 : (![0, 0] : Fin 2 → Nat) = fun _ => 0 := funext fun a => by fin_cases a <;> rfl
private theorem zero1 : (![0] : Fin 1 → Nat) = fun _ => 0 := funext fun a => by fin_cases a <;> rfl

/-- The block indices at grid point `t`: the features and the output move with `t` down the rows, everything else stays. -/
theorem filt_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point `t` writes back is block `t` of the perceptron of the arrays as the region finds them. -/
theorem filt_flushed (c : Dev nD) (t : Fin cfg0.N) :
    (dat0 V c).flushed 5 t = ((cfg0.win 5).blk t).view.read (Elt Ideal)
      (mlpArr (M := 320000) (K := 20) (H := 256) (N := 256) (V c main_arg1) (V c main_arg2) (V c main_arg3) (V c main_arg4) (V c main_arg5)) := by
  show (cfg0.win 5).cut (grid0.coords t) ((dat0 V c).after 5 t) = _
  rw [after0_5]
  unfold out0_5
  rw [View.canon_unit_zero zero2]
  simp only [View.ld_unit_zero (S := S4000x20) zero2, View.ld_unit_zero (S := S20x256) zero2, View.ld_unit_zero (S := S256) zero1,
    View.ld_unit_zero (S := S256x256) zero2]
  obtain ⟨e00, e01, e10, e11, e20, e30, e31, e40, e50, e51⟩ := filt_index t
  have htN : t.val < 80 := t.isLt.trans_eq N_0
  funext j
  obtain ⟨p, q, rfl⟩ : ∃ (p : Fin 4000) (q : Fin 256), j = ix2 p q := ⟨j 0, j 1, eq_ix2 j⟩
  have hr : t.val * 4000 + p.val < 320000 := by have := p.isLt; omega
  show k0_pay1 (iblk0 V c 0 t) (iblk0 V c 1 t) (iblk0 V c 2 t) (iblk0 V c 3 t) (iblk0 V c 4 t) (ix2 p q)
    = mlpArr (M := 320000) (K := 20) (H := 256) (N := 256) (V c main_arg1) (V c main_arg2) (V c main_arg3) (V c main_arg4) (V c main_arg5)
        (((cfg0.win 5).blk t).view.emb (ix2 p q))
  have hemb : ((cfg0.win 5).blk t).view.emb (ix2 p q) = ix2 (⟨t.val * 4000 + p.val, hr⟩ : Fin 320000) q := by
    funext a; apply Fin.ext
    match a with
    | ⟨0, _⟩ => show win0_5.index t (0 : Fin 2) * 4000 + 1 * p.val = t.val * 4000 + p.val; omega
    | ⟨1, _⟩ => show win0_5.index t (1 : Fin 2) * 256 + 1 * q.val = q.val; omega
  rw [hemb, mlpArr_apply]
  refine (Payload.filt_payload_apply (iblk0 V c 0 t) (iblk0 V c 1 t) (iblk0 V c 2 t) (iblk0 V c 3 t) (iblk0 V c 4 t) p q).trans ?_
  have h0 : ∀ j : Fin 20, iblk0 V c 0 t (ix2 p j) = V c main_arg1 (ix2 (⟨t.val * 4000 + p.val, hr⟩ : Fin 320000) j) := fun j => by
    show V c main_arg1 (((cfg0.win 0).blk t).view.emb (ix2 p j)) = _
    refine congrArg (V c main_arg1) (funext fun a => Fin.ext ?_)
    match a with
    | ⟨0, _⟩ => show win0_0.index t (0 : Fin 2) * 4000 + 1 * p.val = t.val * 4000 + p.val; omega
    | ⟨1, _⟩ => show win0_0.index t (1 : Fin 2) * 20 + 1 * j.val = j.val; omega
  have h1 : ∀ (j : Fin 20) (k : Fin 256), iblk0 V c 1 t (ix2 j k) = V c main_arg2 (ix2 j k) := fun j k => by
    show V c main_arg2 (((cfg0.win 1).blk t).view.emb (ix2 j k)) = _
    refine congrArg (V c main_arg2) (funext fun a => Fin.ext ?_)
    match a with
    | ⟨0, _⟩ => show win0_1.index t (0 : Fin 2) * 20 + 1 * j.val = j.val; omega
    | ⟨1, _⟩ => show win0_1.index t (1 : Fin 2) * 256 + 1 * k.val = k.val; omega
  have h2 : ∀ k : Fin 256, iblk0 V c 2 t (ix1 k) = V c main_arg3 (ix1 k) := fun k => by
    show V c main_arg3 (((cfg0.win 2).blk t).view.emb (ix1 k)) = _
    refine congrArg (V c main_arg3) (funext fun a => Fin.ext ?_)
    match a with
    | ⟨0, _⟩ => show win0_2.index t (0 : Fin 1) * 256 + 1 * k.val = k.val; omega
  have h3 : ∀ (k : Fin 256) (q : Fin 256), iblk0 V c 3 t (ix2 k q) = V c main_arg4 (ix2 k q) := fun k q => by
    show V c main_arg4 (((cfg0.win 3).blk t).view.emb (ix2 k q)) = _
    refine congrArg (V c main_arg4) (funext fun a => Fin.ext ?_)
    match a with
    | ⟨0, _⟩ => show win0_3.index t (0 : Fin 2) * 256 + 1 * k.val = k.val; omega
    | ⟨1, _⟩ => show win0_3.index t (1 : Fin 2) * 256 + 1 * q.val = q.val; omega
  have h4 : ∀ q : Fin 256, iblk0 V c 4 t (ix1 q) = V c main_arg5 (ix1 q) := fun q => by
    show V c main_arg5 (((cfg0.win 4).blk t).view.emb (ix1 q)) = _
    refine congrArg (V c main_arg5) (funext fun a => Fin.ext ?_)
    match a with
    | ⟨0, _⟩ => show win0_4.index t (0 : Fin 1) * 256 + 1 * q.val = q.val; omega
  simp only [h0, h1, h2, h3, h4]

/-- An index of the output array is in point `t`'s block iff each coordinate is in the block's range on its axis. -/
theorem filt_mem_blk (t : Fin cfg0.N) (i : S320000x256.Idx) :
    i ∈ ((cfg0.win 5).blk t).view.set ↔ ∀ a : Fin 2, win0_5.index t a * S4000x256.size a ≤ (i a).val ∧ (i a).val < win0_5.index t a * S4000x256.size a + S4000x256.size a := by
  show i ∈ ((View.whole main_v4).slice (win0_5.rect t)).set ↔ _
  rw [View.set_slice_whole, Rect.mem_set_unit]
  exact Iff.rfl

/-- Every index of the output array is in the block of the point its row falls in. -/
theorem filt_cover (i : S320000x256.Idx) :
    ∃ t : Fin cfg0.N, (cfg0.win 5).flush t = true ∧ i ∈ ((cfg0.win 5).blk t).view.set := by
  have hi0 : (i 0).val < 320000 := (i 0).isLt
  have hi1 : (i 1).val < 256 := (i 1).isLt
  have hN : cfg0.N = 80 := N_0
  have htv : (i 0).val / 4000 < cfg0.N := by rw [hN]; omega
  obtain ⟨-, -, -, -, -, -, -, -, e50, e51⟩ := filt_index ⟨(i 0).val / 4000, htv⟩
  refine ⟨⟨(i 0).val / 4000, htv⟩, flush0_5 _, ?_⟩
  rw [filt_mem_blk]
  intro a
  match a with
  | ⟨0, _⟩ =>
    show win0_5.index ⟨(i 0).val / 4000, htv⟩ (0 : Fin 2) * 4000 ≤ (i 0).val ∧ (i 0).val < win0_5.index ⟨(i 0).val / 4000, htv⟩ (0 : Fin 2) * 4000 + 4000
    have e : win0_5.index ⟨(i 0).val / 4000, htv⟩ (0 : Fin 2) = (i 0).val / 4000 := e50
    omega
  | ⟨1, _⟩ =>
    show win0_5.index ⟨(i 0).val / 4000, htv⟩ (1 : Fin 2) * 256 ≤ (i 1).val ∧ (i 1).val < win0_5.index ⟨(i 0).val / 4000, htv⟩ (1 : Fin 2) * 256 + 256
    omega

/-- The filter region's output array after the run: the perceptron, row by row, of the arrays the region was entered with. -/
theorem filt_final (c : Dev nD) :
    (dat0 V c).arrAt 5 cfg0.N
      = mlpArr (M := 320000) (K := 20) (H := 256) (N := 256) (V c main_arg1) (V c main_arg2) (V c main_arg3) (V c main_arg4) (V c main_arg5) :=
  (dat0 V c).arrAt_eq_of_cover 5 _ (fun t _ => filt_flushed V c t) filt_cover

end Cert.KernelIdeal.Arrays

end
-- ==== Proof.UpdPayload.lean ====
/-
  The node-update kernel's body, read at one entry. The body takes a block of 2000 rows of aggregated messages, the two
  weight matrices and the two bias vectors, and stores `silu (a · W₁ + b₁) · W₂ + b₂`. On the extended reals the changes of
  float format and the cast of the block to its own shape are the identity, a product into the zero accumulator is the
  plain sum over the contracted axis, and a bias vector viewed as one row and repeated down the rows reads its own entry:
  entry `(p, q)` of the stored block is the perceptron of row `p` of the message block at output `q`.
-/
import proofs.«116139_j72086731096588_2_alg».proof.Proof.Gen.KernelIdeal.Skeleton
import proofs.«116139_j72086731096588_2_alg».proof.Proof.LibMatmulNN
import proofs.«116139_j72086731096588_2_alg».proof.Proof.Spec
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx Cert.Spec

/-- A bias vector of 256 entries viewed as one row and repeated down 2000 rows reads, at `(p, q)`, its entry `q`. -/
theorem bias2000_apply (v : FVec Ideal S256 .f32) (p : Fin 2000) (q : Fin 256) :
    broadcastTo S2000x256 (shapeCast S1x256 v shapeCasts_S256_S1x256) broadcasts_S1x256_S2000x256 (ix2 p q) = v (ix1 q) :=
  (broadcastTo_1b_ab_apply _ broadcasts_S1x256_S2000x256 p q).trans (shapeCast_a_1a_apply v shapeCasts_S256_S1x256 0 q)

/-- The hidden pre-activation of the update body at `(p, k)`: row `p` of the messages against column `k` of `W₁`, plus `b₁ k`. -/
theorem upd_hidden_apply (b0 : FVec Ideal S2000x256 .f32) (b1 : FVec Ideal S256x256 .f32) (b2 : FVec Ideal S256 .f32)
    (p : Fin 2000) (k : Fin 256) :
    addf (matmul dot_S2000x256_S256x256_S2000x256_1_0_0_1_n_n none
        (truncf .bf16 (shapeCast S2000x256 b0 shapeCasts_S2000x256_S2000x256) bitsLt_bf16_f32) (truncf .bf16 b1 bitsLt_bf16_f32)
        (constant (F := Ideal) S2000x256 .f32 0x00000000#32))
      (broadcastTo S2000x256 (shapeCast S1x256 b2 shapeCasts_S256_S1x256) broadcasts_S1x256_S2000x256) (ix2 p k)
      = pre (fun j => b0 (ix2 p j)) (fun j k => b1 (ix2 j k)) (fun k => b2 (ix1 k)) k := by
  rw [shapeCast_self b0 shapeCasts_S2000x256_S2000x256]
  show _ + _ = _
  refine (congrArg₂ (· + ·) (LibMatmulNN.matmul_zero_apply 2000 256 256 none (truncf .bf16 b0 bitsLt_bf16_f32) (truncf .bf16 b1 bitsLt_bf16_f32) p k)
    (bias2000_apply b2 p k)).trans ?_
  rfl

/-- Entry `(p, q)` of the block the update body stores is the perceptron of row `p` of its message block. -/
theorem upd_payload_apply (b0 : Vec Ideal S2000x256 .f32) (b1 : Vec Ideal S256x256 .f32) (b2 : Vec Ideal S256 .f32)
    (b3 : Vec Ideal S256x256 .f32) (b4 : Vec Ideal S256 .f32) (p : Fin 2000) (q : Fin 256) :
    k1_pay1 b0 b1 b2 b3 b4 (ix2 p q)
      = mlp (fun j => b0 (ix2 p j)) (fun j k => b1 (ix2 j k)) (fun k => b2 (ix1 k)) (fun k q => b3 (ix2 k q))
          (fun q => b4 (ix1 q)) q := by
  unfold k1_pay1 mlp
  show _ + _ = _
  refine (congrArg₂ (· + ·) (LibMatmulNN.matmul_zero_apply 2000 256 256 none _ (truncf .bf16 b3 bitsLt_bf16_f32) p q)
    (bias2000_apply b4 p q)).trans ?_
  refine congrArg (· + b4 (ix1 q)) (Finset.sum_congr rfl fun k _ => ?_)
  refine congrArg (· * b3 (ix2 k q)) ?_
  show _ * _ = silu _
  unfold silu
  have h := upd_hidden_apply b0 b1 b2 p k
  exact congrArg₂ (· * ·) h (congrArg Ideal.logistic h)

end Cert.KernelIdeal.Payload

end
-- ==== Proof.UpdArray.lean ====
/-
  The update region's output array after its run. The region's grid has 5 points; point `t` fetches rows
  `2000·t … 2000·t + 1999` of the aggregated messages and the whole of the weights and biases, and writes back the same rows of
  the output. What it writes back is the perceptron of those rows (the body read at an entry), which is the same rows of the
  perceptron of the whole message array, since an output row reads one input row. The 5 blocks tile the 10000 rows, so the
  array ends holding the perceptron applied row by row to the arrays the region was entered with.
-/
import proofs.«116139_j72086731096588_2_alg».proof.Proof.Gen.KernelIdeal.Frame
import proofs.«116139_j72086731096588_2_alg».proof.Proof.UpdPayload
import Idealize.ShloMosaic.Lib.Pipeline.Value

set_option maxRecDepth 16384

noncomputable section

namespace Cert.KernelIdeal.Arrays

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable (V : (c : Dev nD) → (b : Ref sig .tc) → Buf (Elt Ideal) ((c : Thread nD τ).loc b))

private theorem zero2 : (![0, 0] : Fin 2 → Nat) = fun _ => 0 := funext fun a => by fin_cases a <;> rfl
private theorem zero1 : (![0] : Fin 1 → Nat) = fun _ => 0 := funext fun a => by fin_cases a <;> rfl

/-- The block indices at grid point `t`: the messages and the output move with `t` down the rows, everything else stays. -/
theorem upd_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- What point `t` writes back is block `t` of the perceptron of the arrays as the region finds them. -/
theorem upd_flushed (c : Dev nD) (t : Fin cfg1.N) :
    (dat1 V c).flushed 5 t = ((cfg1.win 5).blk t).view.read (Elt Ideal)
      (mlpArr (M := 10000) (K := 256) (H := 256) (N := 256) (V c main_v17) (V c main_arg6) (V c main_arg7) (V c main_arg8) (V c main_arg9)) := by
  show (cfg1.win 5).cut (grid1.coords t) ((dat1 V c).after 5 t) = _
  rw [after1_5]
  unfold out1_5
  rw [View.canon_unit_zero zero2]
  simp only [View.ld_unit_zero (S := S2000x256) zero2, View.ld_unit_zero (S := S256) zero1, View.ld_unit_zero (S := S256x256) zero2]
  obtain ⟨e00, e01, e10, e11, e20, e30, e31, e40, e50, e51⟩ := upd_index t
  have htN : t.val < 5 := t.isLt.trans_eq N_1
  funext j
  obtain ⟨p, q, rfl⟩ : ∃ (p : Fin 2000) (q : Fin 256), j = ix2 p q := ⟨j 0, j 1, eq_ix2 j⟩
  have hr : t.val * 2000 + p.val < 10000 := by have := p.isLt; omega
  show k1_pay1 (iblk1 V c 0 t) (iblk1 V c 1 t) (iblk1 V c 2 t) (iblk1 V c 3 t) (iblk1 V c 4 t) (ix2 p q)
    = mlpArr (M := 10000) (K := 256) (H := 256) (N := 256) (V c main_v17) (V c main_arg6) (V c main_arg7) (V c main_arg8) (V c main_arg9)
        (((cfg1.win 5).blk t).view.emb (ix2 p q))
  have hemb : ((cfg1.win 5).blk t).view.emb (ix2 p q) = ix2 (⟨t.val * 2000 + p.val, hr⟩ : Fin 10000) q := by
    funext a; apply Fin.ext
    match a with
    | ⟨0, _⟩ => show win1_5.index t (0 : Fin 2) * 2000 + 1 * p.val = t.val * 2000 + p.val; omega
    | ⟨1, _⟩ => show win1_5.index t (1 : Fin 2) * 256 + 1 * q.val = q.val; omega
  rw [hemb, mlpArr_apply]
  refine (Payload.upd_payload_apply (iblk1 V c 0 t) (iblk1 V c 1 t) (iblk1 V c 2 t) (iblk1 V c 3 t) (iblk1 V c 4 t) p q).trans ?_
  have h0 : ∀ j : Fin 256, iblk1 V c 0 t (ix2 p j) = V c main_v17 (ix2 (⟨t.val * 2000 + p.val, hr⟩ : Fin 10000) j) := fun j => by
    show V c main_v17 (((cfg1.win 0).blk t).view.emb (ix2 p j)) = _
    refine congrArg (V c main_v17) (funext fun a => Fin.ext ?_)
    match a with
    | ⟨0, _⟩ => show win1_0.index t (0 : Fin 2) * 2000 + 1 * p.val = t.val * 2000 + p.val; omega
    | ⟨1, _⟩ => show win1_0.index t (1 : Fin 2) * 256 + 1 * j.val = j.val; omega
  have h1 : ∀ (j : Fin 256) (k : Fin 256), iblk1 V c 1 t (ix2 j k) = V c main_arg6 (ix2 j k) := fun j k => by
    show V c main_arg6 (((cfg1.win 1).blk t).view.emb (ix2 j k)) = _
    refine congrArg (V c main_arg6) (funext fun a => Fin.ext ?_)
    match a with
    | ⟨0, _⟩ => show win1_1.index t (0 : Fin 2) * 256 + 1 * j.val = j.val; omega
    | ⟨1, _⟩ => show win1_1.index t (1 : Fin 2) * 256 + 1 * k.val = k.val; omega
  have h2 : ∀ k : Fin 256, iblk1 V c 2 t (ix1 k) = V c main_arg7 (ix1 k) := fun k => by
    show V c main_arg7 (((cfg1.win 2).blk t).view.emb (ix1 k)) = _
    refine congrArg (V c main_arg7) (funext fun a => Fin.ext ?_)
    match a with
    | ⟨0, _⟩ => show win1_2.index t (0 : Fin 1) * 256 + 1 * k.val = k.val; omega
  have h3 : ∀ (k : Fin 256) (q : Fin 256), iblk1 V c 3 t (ix2 k q) = V c main_arg8 (ix2 k q) := fun k q => by
    show V c main_arg8 (((cfg1.win 3).blk t).view.emb (ix2 k q)) = _
    refine congrArg (V c main_arg8) (funext fun a => Fin.ext ?_)
    match a with
    | ⟨0, _⟩ => show win1_3.index t (0 : Fin 2) * 256 + 1 * k.val = k.val; omega
    | ⟨1, _⟩ => show win1_3.index t (1 : Fin 2) * 256 + 1 * q.val = q.val; omega
  have h4 : ∀ q : Fin 256, iblk1 V c 4 t (ix1 q) = V c main_arg9 (ix1 q) := fun q => by
    show V c main_arg9 (((cfg1.win 4).blk t).view.emb (ix1 q)) = _
    refine congrArg (V c main_arg9) (funext fun a => Fin.ext ?_)
    match a with
    | ⟨0, _⟩ => show win1_4.index t (0 : Fin 1) * 256 + 1 * q.val = q.val; omega
  simp only [h0, h1, h2, h3, h4]

/-- An index of the output array is in point `t`'s block iff each coordinate is in the block's range on its axis. -/
theorem upd_mem_blk (t : Fin cfg1.N) (i : S10000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v18).slice (win1_5.rect t)).set ↔ _
  rw [View.set_slice_whole, Rect.mem_set_unit]
  exact Iff.rfl

/-- Every index of the output array is in the block of the point its row falls in. -/
theorem upd_cover (i : S10000x256.Idx) :
    ∃ t : Fin cfg1.N, (cfg1.win 5).flush t = true ∧ i ∈ ((cfg1.win 5).blk t).view.set := by
  have hi0 : (i 0).val < 10000 := (i 0).isLt
  have hi1 : (i 1).val < 256 := (i 1).isLt
  have hN : cfg1.N = 5 := N_1
  have htv : (i 0).val / 2000 < cfg1.N := by rw [hN]; omega
  obtain ⟨-, -, -, -, -, -, -, -, e50, e51⟩ := upd_index ⟨(i 0).val / 2000, htv⟩
  refine ⟨⟨(i 0).val / 2000, htv⟩, flush1_5 _, ?_⟩
  rw [upd_mem_blk]
  intro a
  match a with
  | ⟨0, _⟩ =>
    show win1_5.index ⟨(i 0).val / 2000, htv⟩ (0 : Fin 2) * 2000 ≤ (i 0).val ∧ (i 0).val < win1_5.index ⟨(i 0).val / 2000, htv⟩ (0 : Fin 2) * 2000 + 2000
    have e : win1_5.index ⟨(i 0).val / 2000, htv⟩ (0 : Fin 2) = (i 0).val / 2000 := e50
    omega
  | ⟨1, _⟩ =>
    show win1_5.index ⟨(i 0).val / 2000, htv⟩ (1 : Fin 2) * 256 ≤ (i 1).val ∧ (i 1).val < win1_5.index ⟨(i 0).val / 2000, htv⟩ (1 : Fin 2) * 256 + 256
    omega

/-- The update region's output array after the run: the perceptron, row by row, of the arrays the region was entered with. -/
theorem upd_final (c : Dev nD) :
    (dat1 V c).arrAt 5 cfg1.N
      = mlpArr (M := 10000) (K := 256) (H := 256) (N := 256) (V c main_v17) (V c main_arg6) (V c main_arg7) (V c main_arg8) (V c main_arg9) :=
  (dat1 V c).arrAt_eq_of_cover 5 _ (fun t _ => upd_flushed V c t) upd_cover

end Cert.KernelIdeal.Arrays

end
-- ==== Proof.RefFilt.lean ====
/-
  The reference's edge filter, read at one entry. The reference computes `silu (rbf · W₁ + b₁) · W₂ + b₂` with whole-array
  host operations: two contractions over the shared axis, each bias repeated down the rows, and the sigmoid spelt out as
  `1 / (1 + e^(-z))`. Each stage read at an index is its operands read at an index; chained, entry `(r, q)` is the
  perceptron of row `r` of the radial features at output `q`.
-/
import proofs.«116139_j72086731096588_2_alg».proof.Proof.Gen.ReferenceIdeal.Read
import proofs.«116139_j72086731096588_2_alg».proof.Proof.Spec

noncomputable section

open scoped BigOperators

namespace Cert.ReferenceIdeal.Stages

open Cert.ReferenceIdeal Cert.ReferenceIdeal.Gen Cert.ReferenceIdeal.Read Idealize.ShloMosaic Idealize.ShloMosaic.ValueIdx Cert.Spec

/-- The float word of `1.0` is the real number one. -/
theorem ofBits_one_f32 : Ideal.ofBits .f32 0x3F800000#32 = 1 := by
  simp [Ideal.ofBits, Ideal.ieee]
  rw [← EReal.coe_mul]
  norm_num

/-- The host's spelling of the activation, `z · (1 / (1 + e^(-z)))` with both ones the float word of `1.0`, is `silu z`. -/
theorem host_silu (z : EReal) :
    FloatOps.mulf (F := Ideal) (φ := .f32) z (FloatOps.hostDivf (FloatOps.ofBits .f32 0x3F800000#32)
      (FloatOps.addf (FloatOps.ofBits .f32 0x3F800000#32) (FloatOps.hostUnary .exp (FloatOps.hostNegf z)))) = silu z := by
  show z * Ideal.div (Ideal.ofBits .f32 0x3F800000#32) (Ideal.ofBits .f32 0x3F800000#32 + Ideal.exp (-z)) = z * Ideal.logistic z
  rw [ofBits_one_f32]
  rfl

/-- The filter's hidden pre-activation at `(r, k)`. -/
theorem filt_hidden_apply (x1 : (⟨S320000x20, .f32⟩ : BufTy).Contents (Elt Ideal)) (x2 : (⟨S20x256, .f32⟩ : BufTy).Contents (Elt Ideal))
    (x3 : (⟨S256, .f32⟩ : BufTy).Contents (Elt Ideal)) (r : Fin 320000) (k : Fin 256) :
    val_main_v7 (F := Ideal) x1 x2 x3 (ix2 r k)
      = pre (fun j => x1 (ix2 r j)) (fun j k => x2 (ix2 j k)) (fun k => x3 (ix1 k)) k := by
  rw [val_main_v7_apply, val_main_v4_apply, val_main_v6_apply, val_main_v5_apply]
  have e3 : idx_main_v5 (idx_main_v6 (ix2 r k : S320000x256.Idx)) = ix1 k :=
    funext fun a => Fin.ext (by match a with | ⟨0, _⟩ => rfl)
  have el : ∀ j : Fin 20, lidx_main_v4 (ix2 r k : S320000x256.Idx) j = ix2 r j := fun j =>
    funext fun a => Fin.ext (by match a with | ⟨0, _⟩ => rfl | ⟨1, _⟩ => rfl)
  have er : ∀ j : Fin 20, ridx_main_v4 (ix2 r k : S320000x256.Idx) j = ix2 j k := fun j =>
    funext fun a => Fin.ext (by match a with | ⟨0, _⟩ => rfl | ⟨1, _⟩ => rfl)
  rw [e3]
  simp only [el, er]
  rfl

/-- The filter's activated hidden layer at an index is `silu` of the pre-activation there. -/
theorem filt_act_apply (x1 : (⟨S320000x20, .f32⟩ : BufTy).Contents (Elt Ideal)) (x2 : (⟨S20x256, .f32⟩ : BufTy).Contents (Elt Ideal))
    (x3 : (⟨S256, .f32⟩ : BufTy).Contents (Elt Ideal)) (i : S320000x256.Idx) :
    val_main_v8 (F := Ideal) x1 x2 x3 i = silu (val_main_v7 (F := Ideal) x1 x2 x3 i) := by
  rw [val_main_v8_apply, val_main_call0_v5_apply, val_main_call0_v4_apply, val_main_call0_cst_0_apply, val_main_call0_v3_apply,
    val_main_call0_v2_apply, val_main_call0_cst_apply, val_main_call0_v1_apply, val_main_call0_v0_apply]
  exact host_silu _

/-- Entry `(r, q)` of the reference's filter is the perceptron of row `r` of the radial features. -/
theorem filt_apply (x1 : (⟨S320000x20, .f32⟩ : BufTy).Contents (Elt Ideal)) (x2 : (⟨S20x256, .f32⟩ : BufTy).Contents (Elt Ideal))
    (x3 : (⟨S256, .f32⟩ : BufTy).Contents (Elt Ideal)) (x4 : (⟨S256x256, .f32⟩ : BufTy).Contents (Elt Ideal))
    (x5 : (⟨S256, .f32⟩ : BufTy).Contents (Elt Ideal)) (r : Fin 320000) (q : Fin 256) :
    val_main_v12 (F := Ideal) x1 x2 x3 x4 x5 (ix2 r q)
      = mlp (fun j => x1 (ix2 r j)) (fun j k => x2 (ix2 j k)) (fun k => x3 (ix1 k)) (fun k q => x4 (ix2 k q))
          (fun q => x5 (ix1 q)) q := by
  rw [val_main_v12_apply, val_main_v9_apply, val_main_v11_apply, val_main_v10_apply]
  have e5 : idx_main_v10 (idx_main_v11 (ix2 r q : S320000x256.Idx)) = ix1 q :=
    funext fun a => Fin.ext (by match a with | ⟨0, _⟩ => rfl)
  have el : ∀ k : Fin 256, lidx_main_v9 (ix2 r q : S320000x256.Idx) k = ix2 r k := fun k =>
    funext fun a => Fin.ext (by match a with | ⟨0, _⟩ => rfl | ⟨1, _⟩ => rfl)
  have er : ∀ k : Fin 256, ridx_main_v9 (ix2 r q : S320000x256.Idx) k = ix2 k q := fun k =>
    funext fun a => Fin.ext (by match a with | ⟨0, _⟩ => rfl | ⟨1, _⟩ => rfl)
  rw [e5]
  simp only [el, er, filt_act_apply, filt_hidden_apply]
  rfl

/-- The reference's filter as a whole array is the perceptron applied row by row. -/
theorem filt_eq (x1 : (⟨S320000x20, .f32⟩ : BufTy).Contents (Elt Ideal)) (x2 : (⟨S20x256, .f32⟩ : BufTy).Contents (Elt Ideal))
    (x3 : (⟨S256, .f32⟩ : BufTy).Contents (Elt Ideal)) (x4 : (⟨S256x256, .f32⟩ : BufTy).Contents (Elt Ideal))
    (x5 : (⟨S256, .f32⟩ : BufTy).Contents (Elt Ideal)) :
    val_main_v12 (F := Ideal) x1 x2 x3 x4 x5 = mlpArr x1 x2 x3 x4 x5 := by
  funext i
  rw [eq_ix2 i]
  exact filt_apply x1 x2 x3 x4 x5 (i 0) (i 1)

end Cert.ReferenceIdeal.Stages

end
-- ==== Proof.RefUpd.lean ====
/-
  The reference's node update, read at one entry. The aggregated messages `a` (the scatter-add's result, which this file
  never opens) go through `silu (a · W₁ + b₁) · W₂ + b₂`, again with whole-array host operations and the sigmoid spelt out.
  Entry `(r, q)` is the perceptron of row `r` of the aggregated messages at output `q`.
-/
import proofs.«116139_j72086731096588_2_alg».proof.Proof.Gen.ReferenceIdeal.Read
import proofs.«116139_j72086731096588_2_alg».proof.Proof.Spec
import proofs.«116139_j72086731096588_2_alg».proof.Proof.RefFilt

noncomputable section

open scoped BigOperators

namespace Cert.ReferenceIdeal.Stages

open Cert.ReferenceIdeal Cert.ReferenceIdeal.Gen Cert.ReferenceIdeal.Read Idealize.ShloMosaic Idealize.ShloMosaic.ValueIdx Cert.Spec

variable (x0 : (⟨S10000x256, .f32⟩ : BufTy).Contents (Elt Ideal)) (x1 : (⟨S320000x20, .f32⟩ : BufTy).Contents (Elt Ideal))
  (x2 : (⟨S20x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal))
  (x12 : (⟨S2x320000, .i32⟩ : BufTy).Contents (Elt Ideal))

/-- The update's hidden pre-activation at `(r, k)`, over the aggregated messages. -/
theorem upd_hidden_apply (r : Fin 10000) (k : Fin 256) :
    val_main_v27 (F := Ideal) x0 x1 x2 x3 x4 x5 x6 x7 x12 (ix2 r k)
      = pre (fun j => val_main_v23 (F := Ideal) x0 x1 x2 x3 x4 x5 x12 (ix2 r j)) (fun j k => x6 (ix2 j k)) (fun k => x7 (ix1 k)) k := by
  rw [val_main_v27_apply, val_main_v24_apply, val_main_v26_apply, val_main_v25_apply]
  have e3 : idx_main_v25 (idx_main_v26 (ix2 r k : S10000x256.Idx)) = ix1 k :=
    funext fun a => Fin.ext (by match a with | ⟨0, _⟩ => rfl)
  have el : ∀ j : Fin 256, lidx_main_v24 (ix2 r k : S10000x256.Idx) j = ix2 r j := fun j =>
    funext fun a => Fin.ext (by match a with | ⟨0, _⟩ => rfl | ⟨1, _⟩ => rfl)
  have er : ∀ j : Fin 256, ridx_main_v24 (ix2 r k : S10000x256.Idx) j = ix2 j k := fun j =>
    funext fun a => Fin.ext (by match a with | ⟨0, _⟩ => rfl | ⟨1, _⟩ => rfl)
  rw [e3]
  simp only [el, er]
  rfl

/-- The update's activated hidden layer at an index is `silu` of the pre-activation there. -/
theorem upd_act_apply (i : S10000x256.Idx) :
    val_main_v28 (F := Ideal) x0 x1 x2 x3 x4 x5 x6 x7 x12 i = silu (val_main_v27 (F := Ideal) x0 x1 x2 x3 x4 x5 x6 x7 x12 i) := by
  rw [val_main_v28_apply, val_main_call1_v5_apply, val_main_call1_v4_apply, val_main_call1_cst_0_apply, val_main_call1_v3_apply,
    val_main_call1_v2_apply, val_main_call1_cst_apply, val_main_call1_v1_apply, val_main_call1_v0_apply]
  exact host_silu _

/-- Entry `(r, q)` of the reference's node update is the perceptron of row `r` of the aggregated messages. -/
theorem upd_apply (r : Fin 10000) (q : Fin 256) :
    val_main_v32 (F := Ideal) x0 x1 x2 x3 x4 x5 x6 x7 x8 x9 x12 (ix2 r q)
      = mlp (fun j => val_main_v23 (F := Ideal) x0 x1 x2 x3 x4 x5 x12 (ix2 r j)) (fun j k => x6 (ix2 j k)) (fun k => x7 (ix1 k))
          (fun k q => x8 (ix2 k q)) (fun q => x9 (ix1 q)) q := by
  rw [val_main_v32_apply, val_main_v29_apply, val_main_v31_apply, val_main_v30_apply]
  have e5 : idx_main_v30 (idx_main_v31 (ix2 r q : S10000x256.Idx)) = ix1 q :=
    funext fun a => Fin.ext (by match a with | ⟨0, _⟩ => rfl)
  have el : ∀ k : Fin 256, lidx_main_v29 (ix2 r q : S10000x256.Idx) k = ix2 r k := fun k =>
    funext fun a => Fin.ext (by match a with | ⟨0, _⟩ => rfl | ⟨1, _⟩ => rfl)
  have er : ∀ k : Fin 256, ridx_main_v29 (ix2 r q : S10000x256.Idx) k = ix2 k q := fun k =>
    funext fun a => Fin.ext (by match a with | ⟨0, _⟩ => rfl | ⟨1, _⟩ => rfl)
  rw [e5]
  simp only [el, er, upd_act_apply, upd_hidden_apply]
  rfl

/-- The reference's node update as a whole array is the perceptron applied row by row to the aggregated messages. -/
theorem upd_eq :
    val_main_v32 (F := Ideal) x0 x1 x2 x3 x4 x5 x6 x7 x8 x9 x12
      = mlpArr (val_main_v23 (F := Ideal) x0 x1 x2 x3 x4 x5 x12) x6 x7 x8 x9 := by
  funext i
  rw [eq_ix2 i]
  exact upd_apply x0 x1 x2 x3 x4 x5 x6 x7 x8 x9 x12 (i 0) (i 1)

end Cert.ReferenceIdeal.Stages

end
-- ==== Proof.HostGlue.lean ====
/-
  The host side of the idealized kernel, read through. Between the two pipelined regions and around them the program runs
  plain host operations; the buffer contents at each boundary are a fold of those operations over the launch memory. Here
  each boundary is read at the buffers the next part uses:
  * a buffer that no operation of a stretch writes keeps its contents through the stretch, and a region changes only its own
    arrays: so an argument reads its launch contents at every boundary, and the two rows of the edge list, sliced and flattened
    before the first region, are still there after it;
  * after the first region its output holds the edge filter — the perceptron of the radial features, row by row —, which is the
    reference's filter stage;
  * the stretch between the regions gathers the sender's features (converted to the narrower float format and back: the identity
    on the extended reals), multiplies by the filter and scatter-adds into the receivers: the reference's aggregation stage, the
    same operations of the same arrays;
  * after the second region its output holds the perceptron of the aggregated messages, the reference's update stage;
  * the last stretch is the batch normalisation and the residual, operation for operation the reference's.
  So the result buffer ends holding the reference's last stage of the launch arguments.
-/
import proofs.«116139_j72086731096588_2_alg».proof.Proof.Gen.KernelIdeal.Frame
import proofs.«116139_j72086731096588_2_alg».proof.Proof.Gen.ReferenceIdeal.Read
import proofs.«116139_j72086731096588_2_alg».proof.Proof.FiltArray
import proofs.«116139_j72086731096588_2_alg».proof.Proof.UpdArray
import proofs.«116139_j72086731096588_2_alg».proof.Proof.RefFilt
import proofs.«116139_j72086731096588_2_alg».proof.Proof.RefUpd
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec
open Idealize.ShloMosaic.StableHlo

variable (m : (ℓ : Loc nD τ sig) → Buf (Elt Ideal) ℓ) (ρ : Dev nD → PrngReg)

/-! ## What the stretches before the second region write, and what they keep -/

/-- The buffers the stretch before the first region writes: the edge list's two rows, sliced and flattened. -/
abbrev written0 : List (Ref sig .tc) := [main_v0, main_v1, main_v2, main_v3]

theorem hostOps0_writes : (hostOps0 : List (HloOp τ sig (Elt Ideal))).Forall fun op =>
    op.writes ⊆ (written0.map (Proc.devRef (τ := τ) .tc)).toFinset := by
  simp only [List.Forall]
  repeat' apply And.intro
  all_goals
    simp only [StableHlo.unary_writes, StableHlo.reshape_writes, Finset.singleton_subset_iff, List.mem_toFinset]
    exact List.mem_map_of_mem (by decide)

/-- A buffer the first stretch does not write holds its launch contents at the first region's entry. -/
theorem kept0 (c : Dev nD) (r : Ref sig .tc) (h : r ∉ written0) :
    W1 m ρ c (Proc.devRef .tc r) = m ((c : Thread nD τ).loc r) :=
  StableHlo.after_of_writes_sub hostOps0 _ hostOps0_writes h

/-- The buffers the stretch between the regions writes. -/
abbrev written1 : List (Ref sig .tc) :=
  [main_v5, main_c, main_v6, main_v7, main_c_0, main_v8, main_v9, main_v10, main_v11, main_v12, main_v13, main_v14, main_cst,
    main_v15, main_v16, main_v17]

theorem hostOps1_writes : (hostOps1 : List (HloOp τ sig (Elt Ideal))).Forall fun op =>
    op.writes ⊆ (written1.map (Proc.devRef (τ := τ) .tc)).toFinset := by
  simp only [List.Forall]
  repeat' apply And.intro
  all_goals
    simp only [StableHlo.nullary_writes, StableHlo.unary_writes, StableHlo.binary_writes, StableHlo.ternary_writes,
      Finset.singleton_subset_iff, List.mem_toFinset]
    exact List.mem_map_of_mem (by decide)

/-- A buffer that neither stretch writes and that is not an array of the first region holds its launch contents at the
    second region's entry. -/
theorem kept1 (c : Dev nD) (r : Ref sig .tc) (h1 : r ∉ written1) (hr : ∀ w, Pipeline.arrRef spec0 w ≠ r) (h0 : r ∉ written0) :
    W3 m ρ c (Proc.devRef .tc r) = m ((c : Thread nD τ).loc r) :=
  (StableHlo.after_of_writes_sub hostOps1 _ hostOps1_writes h1).trans ((W2_of_ne m ρ c r hr).trans (kept0 m ρ c r h0))

/-- The same at the second region's exit, for a buffer that is not an array of the second region either. -/
theorem kept2 (c : Dev nD) (r : Ref sig .tc) (hr' : ∀ w, Pipeline.arrRef spec1 w ≠ r) (h1 : r ∉ written1)
    (hr : ∀ w, Pipeline.arrRef spec0 w ≠ r) (h0 : r ∉ written0) :
    W4 m ρ c (Proc.devRef .tc r) = m ((c : Thread nD τ).loc r) :=
  (W4_of_ne m ρ c r hr').trans (kept1 m ρ c r h1 hr h0)

/-! ## The edge list's two rows -/

/-- The receivers' row of the edge list, flattened, as the first stretch leaves it. -/
theorem W1_v1 (c : Dev nD) : W1 m ρ c (Proc.devRef .tc main_v1)
    = shapeCast _ (extractStridedSlice S1x320000 ![0, 0] (m ((c : Thread nD τ).loc main_arg12)) slices_S2x320000_S1x320000_0_0) shapeCasts_S1x320000_S320000 := by
  show StableHlo.after hostOps0 (W0 m ρ c) (Proc.devRef .tc main_v1) = _
  after_results
  rfl

/-- The senders' row of the edge list, flattened, as the first stretch leaves it. -/
theorem W1_v3 (c : Dev nD) : W1 m ρ c (Proc.devRef .tc main_v3)
    = shapeCast _ (extractStridedSlice S1x320000 ![1, 0] (m ((c : Thread nD τ).loc main_arg12)) slices_S2x320000_S1x320000_1_0) shapeCasts_S1x320000_S320000 := by
  show StableHlo.after hostOps0 (W0 m ρ c) (Proc.devRef .tc main_v3) = _
  after_results
  rfl

/-! ## The first region's output: the edge filter -/

/-- After the first region its output buffer holds the reference's filter stage of the launch arguments. -/
theorem W2_v4 (c : Dev nD) : W2 m ρ c (Proc.devRef .tc main_v4)
    = Cert.ReferenceIdeal.Read.val_main_v12 (F := Ideal) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 5).trans ((Arrays.filt_final (V1 m ρ) c).trans ?_)
  rw [show V1 m ρ c main_arg1 = _ from kept0 m ρ c main_arg1 (by decide), show V1 m ρ c main_arg2 = _ from kept0 m ρ c main_arg2 (by decide),
    show V1 m ρ c main_arg3 = _ from kept0 m ρ c main_arg3 (by decide), show V1 m ρ c main_arg4 = _ from kept0 m ρ c main_arg4 (by decide),
    show V1 m ρ c main_arg5 = _ from kept0 m ρ c main_arg5 (by decide)]
  exact (Cert.ReferenceIdeal.Stages.filt_eq _ _ _ _ _).symm

/-! ## The stretch between the regions: gather, multiply, scatter-add -/

/-- Rows gathered from the features converted to the narrower float format, then converted back, are the rows gathered
    from the features themselves: both conversions are the identity on the extended reals. -/
theorem gather_narrow (x : FVec Ideal S10000x256 .f32) (idx : IVec S320000x1 32) :
    extf .f32 (Host.gather gather_S10000x256_S320000x1_S320000x256_1_0_n_n_0_1_1256 (truncf .bf16 x bitsLt_bf16_f32) idx) bitsLt_bf16_f32
      = Host.gather gather_S10000x256_S320000x1_S320000x256_1_0_n_n_0_1_1256 x idx := rfl

/-- At the second region's entry the aggregated messages are the reference's aggregation stage of the launch arguments. -/
theorem V3_v17 (c : Dev nD) : V3 m ρ c main_v17
    = Cert.ReferenceIdeal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) := by
  have e1 := (W2_of_ne m ρ c main_v1 (by decide)).trans (W1_v1 m ρ c)
  have e3 := (W2_of_ne m ρ c main_v3 (by decide)).trans (W1_v3 m ρ c)
  have e0 := (W2_of_ne m ρ c main_arg0 (by decide)).trans (kept0 m ρ c main_arg0 (by decide))
  have e4 := W2_v4 m ρ c
  show StableHlo.after hostOps1 (W2 m ρ c) (Proc.devRef .tc main_v17) = _
  generalize W2 m ρ c = Wv at e1 e3 e0 e4 ⊢
  after_results
  rw [e1, e3, e0, e4, gather_narrow]
  rfl

/-! ## The second region's output: the node update -/

/-- After the second region its output buffer holds the reference's update stage of the launch arguments. -/
theorem W4_v18 (c : Dev nD) : W4 m ρ c (Proc.devRef .tc main_v18)
    = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) := by
  refine (W4_arr m ρ c 5).trans ((Arrays.upd_final (V3 m ρ) c).trans ?_)
  rw [V3_v17, show V3 m ρ c main_arg6 = _ from kept1 m ρ c main_arg6 (by decide) (by decide) (by decide),
    show V3 m ρ c main_arg7 = _ from kept1 m ρ c main_arg7 (by decide) (by decide) (by decide),
    show V3 m ρ c main_arg8 = _ from kept1 m ρ c main_arg8 (by decide) (by decide) (by decide),
    show V3 m ρ c main_arg9 = _ from kept1 m ρ c main_arg9 (by decide) (by decide) (by decide)]
  exact (Cert.ReferenceIdeal.Stages.upd_eq _ _ _ _ _ _ _ _ _ _ _).symm

/-! ## The last stretch: batch normalisation and the residual -/

set_option maxHeartbeats 4000000 in
/-- The result buffer ends holding the reference's last stage of the launch arguments. -/
theorem W5_v44 (c : Dev nD) : W5 m ρ c (Proc.devRef .tc main_v44)
    = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have e18 := W4_v18 m ρ c
  have e0 := kept2 m ρ c main_arg0 (by decide) (by decide) (by decide) (by decide)
  have e10 := kept2 m ρ c main_arg10 (by decide) (by decide) (by decide) (by decide)
  have e11 := kept2 m ρ c main_arg11 (by decide) (by decide) (by decide) (by decide)
  show StableHlo.after hostOps2 (W4 m ρ c) (Proc.devRef .tc main_v44) = _
  generalize W4 m ρ c = Wv at e18 e0 e10 e11 ⊢
  after_results_simp
  rw [e18, e0, e10, e11]
  rfl

end Cert.KernelIdeal.Whole

end
-- ==== Proof.lean ====
/-
  A message-passing layer on a graph with 10000 nodes and 320000 edges, 256 features per node and 20 radial features per edge:
  an edge filter `silu (rbf · Wf₁ + bf₁) · Wf₂ + bf₂`, the messages `x[sender] · filter` summed into the receivers, a node
  update `silu (agg · Wu₁ + bu₁) · Wu₂ + bu₂`, a batch normalisation over the nodes with its affine map, and the residual.

  The kernel program computes the two perceptrons in two pipelined regions, tiled over the edges (80 blocks of 4000 rows) and
  over the nodes (5 blocks of 2000 rows) with the operands narrowed to a shorter float format before each product, and gathers
  the sender's features in the shorter format; everything else is the reference's own host operations. On the extended reals a
  change of float format is the identity, a product into a zero accumulator and a host contraction are one plain sum over the
  contracted axis, the kernel's sigmoid and the host's `1 / (1 + e^(-z))` are one function, and an output row of a perceptron
  reads one input row, so the tiling changes nothing. No step uses distributivity or cancellation: the two programs compute the
  same sums of the same products in the same places, and the equality holds at every extended-real input, finite or not.

  The modules: `Spec` states the perceptron once; `FiltPayload` / `UpdPayload` read the two kernel bodies at an entry;
  `FiltArray` / `UpdArray` put the blocks together into the regions' output arrays; `RefFilt` / `RefUpd` read the reference's two
  perceptron stages at an entry; `KernelRun` names the kernel program's final memory; `HostGlue` reads it back through the host
  stretches to the reference's last stage. Below are the five claims.
-/
import proofs.«116139_j72086731096588_2_alg».proof.Defs
import proofs.«116139_j72086731096588_2_alg».proof.Proof.Gen.Kernel
import proofs.«116139_j72086731096588_2_alg».proof.Proof.Gen.Kernel.Skeleton
import proofs.«116139_j72086731096588_2_alg».proof.Proof.Gen.Kernel.Launch
import proofs.«116139_j72086731096588_2_alg».proof.Proof.Gen.Kernel.Points
import proofs.«116139_j72086731096588_2_alg».proof.Proof.Gen.Kernel.Frame
import proofs.«116139_j72086731096588_2_alg».proof.Proof.Gen.KernelIdeal
import proofs.«116139_j72086731096588_2_alg».proof.Proof.Gen.KernelIdeal.Skeleton
import proofs.«116139_j72086731096588_2_alg».proof.Proof.Gen.KernelIdeal.Launch
import proofs.«116139_j72086731096588_2_alg».proof.Proof.Gen.KernelIdeal.Points
import proofs.«116139_j72086731096588_2_alg».proof.Proof.Gen.KernelIdeal.Frame
import proofs.«116139_j72086731096588_2_alg».proof.Proof.Gen.ReferenceIdeal
import proofs.«116139_j72086731096588_2_alg».proof.Proof.Gen.Pre_finite_inputs
import proofs.«116139_j72086731096588_2_alg».proof.Proof.Gen.ReferenceIdeal.Run
import proofs.«116139_j72086731096588_2_alg».proof.Proof.Gen.ReferenceIdeal.Read
import proofs.«116139_j72086731096588_2_alg».proof.Proof.KernelRun
import proofs.«116139_j72086731096588_2_alg».proof.Proof.HostGlue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The idealized reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the reference's last stage of the launch arguments in their result buffers: the kernel
    program by reading its final memory back through its host stretches and regions, the reference by its own run; and the
    arguments agree. -/
theorem algebraic : Cert.algebraic_KernelIdeal_ReferenceIdeal := by
  intro m ρ m' ρ' _ hagree
  refine ⟨fun c => Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ?_) (Cert.KernelIdeal.Whole.run_all (F := Ideal) m ρ)
    exact ⟨(h c _ (Cert.KernelIdeal.Gen.mem_uc Cert.KernelIdeal.main_v44 (by decide))).trans (Cert.KernelIdeal.Whole.W5_v44 m ρ c),
      (h c _ (Cert.KernelIdeal.Gen.mem_uc Cert.KernelIdeal.main_arg0 (by decide))).trans (Cert.KernelIdeal.Gen.W5_main_arg0 m ρ c),
      (h c _ (Cert.KernelIdeal.Gen.mem_uc Cert.KernelIdeal.main_arg1 (by decide))).trans (Cert.KernelIdeal.Gen.W5_main_arg1 m ρ c),
      (h c _ (Cert.KernelIdeal.Gen.mem_uc Cert.KernelIdeal.main_arg2 (by decide))).trans (Cert.KernelIdeal.Gen.W5_main_arg2 m ρ c),
      (h c _ (Cert.KernelIdeal.Gen.mem_uc Cert.KernelIdeal.main_arg3 (by decide))).trans (Cert.KernelIdeal.Gen.W5_main_arg3 m ρ c),
      (h c _ (Cert.KernelIdeal.Gen.mem_uc Cert.KernelIdeal.main_arg4 (by decide))).trans (Cert.KernelIdeal.Gen.W5_main_arg4 m ρ c),
      (h c _ (Cert.KernelIdeal.Gen.mem_uc Cert.KernelIdeal.main_arg5 (by decide))).trans (Cert.KernelIdeal.Gen.W5_main_arg5 m ρ c),
      (h c _ (Cert.KernelIdeal.Gen.mem_uc Cert.KernelIdeal.main_arg6 (by decide))).trans (Cert.KernelIdeal.Gen.W5_main_arg6 m ρ c),
      (h c _ (Cert.KernelIdeal.Gen.mem_uc Cert.KernelIdeal.main_arg7 (by decide))).trans (Cert.KernelIdeal.Gen.W5_main_arg7 m ρ c),
      (h c _ (Cert.KernelIdeal.Gen.mem_uc Cert.KernelIdeal.main_arg8 (by decide))).trans (Cert.KernelIdeal.Gen.W5_main_arg8 m ρ c),
      (h c _ (Cert.KernelIdeal.Gen.mem_uc Cert.KernelIdeal.main_arg9 (by decide))).trans (Cert.KernelIdeal.Gen.W5_main_arg9 m ρ c),
      (h c _ (Cert.KernelIdeal.Gen.mem_uc Cert.KernelIdeal.main_arg10 (by decide))).trans (Cert.KernelIdeal.Gen.W5_main_arg10 m ρ c),
      (h c _ (Cert.KernelIdeal.Gen.mem_uc Cert.KernelIdeal.main_arg11 (by decide))).trans (Cert.KernelIdeal.Gen.W5_main_arg11 m ρ c),
      (h c _ (Cert.KernelIdeal.Gen.mem_uc Cert.KernelIdeal.main_arg12 (by decide))).trans (Cert.KernelIdeal.Gen.W5_main_arg12 m ρ c)⟩
  · refine (θ_run Cert.ReferenceIdeal.defs _ _).mono (fun r h c => ⟨?_, (h c).2⟩) (Cert.ReferenceIdeal.Value.run (F := Ideal) m' ρ')
    obtain ⟨a0, a1, a2, a3, a4, a5, a6, a7, a8, a9, a10, a11, a12⟩ := hagree c
    rw [(h c).1, Cert.ReferenceIdeal.Read.val_main_v58_eq, a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
